-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S8x4096x1024 .f32) (main_arg1 : FVec F S8 .f32) (main_arg2 : FVec F S4096x8 .f32) (main_arg3 : FVec F S1024x4096 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S32768x1024 : Shape := ⟨2, ![32768, 1024]⟩
abbrev S1x8 : Shape := ⟨2, ![1, 8]⟩
abbrev S512x128 : Shape := ⟨2, ![512, 128]⟩
abbrev S512x1024 : Shape := ⟨2, ![512, 1024]⟩
abbrev S512x8 : Shape := ⟨2, ![512, 8]⟩
abbrev S512x4096 : Shape := ⟨2, ![512, 4096]⟩

abbrev nBuf : Space → Nat
  | .hbm => 13
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S32768x1024, .f32⟩
  | .hbm, ⟨5, _⟩ => ⟨S8, .f32⟩
  | .hbm, ⟨6, _⟩ => ⟨S1x8, .f32⟩
  | .hbm, ⟨7, _⟩ => ⟨S4096x8, .f32⟩
  | .hbm, ⟨8, _⟩ => ⟨S4096x8, .f32⟩
  | .hbm, ⟨9, _⟩ => ⟨S4096x8, .bf16⟩
  | .hbm, ⟨10, _⟩ => ⟨S1024x4096, .bf16⟩
  | .hbm, ⟨11, _⟩ => ⟨S32768x1024, .f32⟩
  | .hbm, ⟨12, _⟩ => ⟨S8x4096x1024, .f32⟩
  | .local _ .vmem, ⟨0, _⟩ => ⟨S512x128, .f32⟩
  | .local _ .vmem, ⟨1, _⟩ => ⟨S512x128, .f32⟩
  | .local _ .vmem, ⟨2, _⟩ => ⟨S4096x8, .bf16⟩
  | .local _ .vmem, ⟨3, _⟩ => ⟨S1024x4096, .bf16⟩
  | .local _ .vmem, ⟨4, _⟩ => ⟨S512x1024, .f32⟩
  | .local _ .vmem, ⟨5, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x8 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x1024_S32768x1024 : S8x4096x1024.ShapeCasts S32768x1024
  bcast_S8_S1x8_1 : S8.BroadcastsInDim S1x8 (![1] : Fin 1 → Fin S1x8.rank)
  bcast_S1x8_S4096x8_0_1 : S1x8.BroadcastsInDim S4096x8 (![0, 1] : Fin 2 → Fin S4096x8.rank)
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S512x128_o0_0_S512x8 : S512x128.Slices ![0, 0] S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x1024.size a
  hwx0_0 : ∀ i : grid0.Coords, EltTy.bits .f32 = 32 ∨ (Rect.block (s := S32768x1024) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x8.size a ≤ S4096x8.size a
  hwx0_1 : ∀ i : grid0.Coords, EltTy.bits .bf16 = 32 ∨ (Rect.block (s := S4096x8) S4096x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S32768x1024.size a
  hwx0_3 : ∀ i : grid0.Coords, EltTy.bits .f32 = 32 ∨ (Rect.block (s := S32768x1024) S512x1024.size (cc0_transform_3 i) (hinb0_3 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S8x4096x8 : Shape := ⟨3, ![8, 4096, 8]⟩
abbrev S1x1x8 : Shape := ⟨3, ![1, 1, 8]⟩
abbrev S8x4096x4096 : Shape := ⟨3, ![8, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x4096 : S_.BroadcastsInDim S8x4096x4096 (![] : Fin 0 → Fin S8x4096x4096.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.CosMlp.lean ====
/-
  The function both programs compute, over the extended reals.

  A token (b, s) is read through its first eight channels only. Channel n gives the feature
  cos x[b,s,n] · cos θ[n]. A hidden layer of 4096 units takes the inner product of the eight features
  with the unit's eight weights W1[f, ·] and clips it below at zero. Output channel e of the token is the
  inner product of the hidden layer with row e of W2:

      out[b,s,e] = ∑ f, max (∑ n, (cos x[b,s,n] · cos θ[n]) · W1[f,n]) 0 · W2[e,f].

  One program scales the weight instead of the feature: it sums cos x[b,s,n] · (W1[f,n] · cos θ[n]). The two
  summands are equal because multiplication of extended reals is commutative and associative, which holds at
  the infinities too, so no finiteness is used anywhere. The zero the hidden layer is clipped at is kept as the
  value of the all-zero word, the same word in both programs, and is never evaluated.

  Tokens are also addressed by one row number b · 4096 + s < 32768 (`rows`), the flat form in which one of
  the programs works; `out_rows` says the flat form read at (b · 4096 + s, e) is `out` at (b, s, e).
-/
import Idealize.ShloMosaic.PureOps.Ideal
import Idealize.ShloMosaic.PureOps.Ideal.Laws
import Idealize.ShloMosaic.Lib.ValueIdx

noncomputable section

namespace Cert.CosMlp

open Idealize.ShloMosaic Idealize.ShloMosaic.ValueIdx

/-- Channel `n < 8` among a token's 1024 channels. -/
def chan (n : Fin 8) : Fin 1024 := ⟨n.val, by omega⟩

/-- A hidden unit: the inner product of eight features with eight weights, clipped below at the zero word's value. -/
def unit (q w : Fin 8 → EReal) : EReal :=
  max (∑ n : Fin 8, q n * w n) (Ideal.ofBits .f32 0x00000000#32)

/-- Moving the scale `c` from the feature `a` to the weight `w` does not change the product. -/
theorem scale_weight (a c w : EReal) : a * (w * c) = a * c * w := by
  rw [mul_comm w c, mul_assoc]

/-- A hidden unit over scaled weights is the unit over scaled features. -/
theorem unit_scale_weight (a c w : Fin 8 → EReal) :
    unit a (fun n => w n * c n) = unit (fun n => a n * c n) w := by
  unfold unit
  exact congrArg (max · _) (Finset.sum_congr rfl fun n _ => scale_weight (a n) (c n) (w n))

/-- Hidden unit `f` of token (b, s). -/
def hidden (x : (⟨3, ![8, 4096, 1024]⟩ : Shape).Idx → EReal) (θ : (⟨1, ![8]⟩ : Shape).Idx → EReal)
    (w1 : (⟨2, ![4096, 8]⟩ : Shape).Idx → EReal) (b : Fin 8) (s : Fin 4096) (f : Fin 4096) : EReal :=
  unit (fun n => Ideal.cos (x (ix3 b s (chan n))) * Ideal.cos (θ (ix1 n))) (fun n => w1 (ix2 f n))

/-- The result: channel `i 2` of token (`i 0`, `i 1`). -/
def out (x : (⟨3, ![8, 4096, 1024]⟩ : Shape).Idx → EReal) (θ : (⟨1, ![8]⟩ : Shape).Idx → EReal)
    (w1 : (⟨2, ![4096, 8]⟩ : Shape).Idx → EReal) (w2 : (⟨2, ![1024, 4096]⟩ : Shape).Idx → EReal) :
    (⟨3, ![8, 4096, 1024]⟩ : Shape).Idx → EReal :=
  fun i => ∑ f : Fin 4096, hidden x θ w1 (i 0) (i 1) f * w2 (ix2 (i 2) f)

/-- The same over tokens addressed by one row number, features unscaled and the scale already in the weights `v`:
    channel `j 1` of row `j 0`. -/
def rows (xr : (⟨2, ![32768, 1024]⟩ : Shape).Idx → EReal) (v : (⟨2, ![4096, 8]⟩ : Shape).Idx → EReal)
    (w2 : (⟨2, ![1024, 4096]⟩ : Shape).Idx → EReal) : (⟨2, ![32768, 1024]⟩ : Shape).Idx → EReal :=
  fun j => ∑ f : Fin 4096, unit (fun n => Ideal.cos (xr (ix2 (j 0) (chan n)))) (fun n => v (ix2 f n)) * w2 (ix2 (j 1) f)

/-- Row number of token (b, s). -/
def row (b : Fin 8) (s : Fin 4096) : Fin 32768 := ⟨b.val * 4096 + s.val, by omega⟩

/-- If the flat array holds token (b, s) at row b · 4096 + s and the weights `v` are W1 scaled by cos θ, the flat
    result at (b · 4096 + s, e) is `out` at (b, s, e). -/
theorem out_rows (x : (⟨3, ![8, 4096, 1024]⟩ : Shape).Idx → EReal) (θ : (⟨1, ![8]⟩ : Shape).Idx → EReal)
    (w1 : (⟨2, ![4096, 8]⟩ : Shape).Idx → EReal) (w2 : (⟨2, ![1024, 4096]⟩ : Shape).Idx → EReal)
    (xr : (⟨2, ![32768, 1024]⟩ : Shape).Idx → EReal) (v : (⟨2, ![4096, 8]⟩ : Shape).Idx → EReal)
    (hx : ∀ (b : Fin 8) (s : Fin 4096) (k : Fin 1024), xr (ix2 (row b s) k) = x (ix3 b s k))
    (hv : ∀ (f : Fin 4096) (n : Fin 8), v (ix2 f n) = w1 (ix2 f n) * Ideal.cos (θ (ix1 n)))
    (b : Fin 8) (s : Fin 4096) (e : Fin 1024) :
    rows xr v w2 (ix2 (row b s) e) = out x θ w1 w2 (ix3 b s e) := by
  unfold rows out hidden
  refine Finset.sum_congr rfl fun f _ => ?_
  show unit (fun n => Ideal.cos (xr (ix2 (row b s) (chan n)))) (fun n => v (ix2 f n)) * w2 (ix2 e f)
    = unit (fun n => Ideal.cos (x (ix3 b s (chan n))) * Ideal.cos (θ (ix1 n))) (fun n => w1 (ix2 f n)) * w2 (ix2 e f)
  rw [← unit_scale_weight]
  exact congrArg (· * _) (congrArg₂ unit (funext fun n => by rw [hx]) (funext fun n => hv f n))

end Cert.CosMlp

end
-- ==== Proof.ReferenceValue.lean ====
/-
  The reference computes `out`.

  Its last stage is an inner product over the 4096 hidden units; each hidden unit is the maximum of an inner product
  over the eight channels and the zero word's value; each feature is cos of the token's channel times cos of the
  angle, the angle's cosine first spread over all tokens. Read at an index, every stage names the coordinates
  `out` names, so the two are equal term by term.
-/
import proofs.«100312_j65481071395981_2_alg».proof.Proof.Gen.ReferenceIdeal.Read
import proofs.«100312_j65481071395981_2_alg».proof.Proof.CosMlp

noncomputable section

namespace Cert.CosMlp.Reference

open Cert.ReferenceIdeal Cert.ReferenceIdeal.Read Idealize.ShloMosaic Idealize.ShloMosaic.ValueIdx

/-- Hidden unit `f` of token (b, s) as the reference computes it: the clipped stage read at (b, s, f). -/
theorem hidden_stage (x0 : FVec Ideal S8x4096x1024 .f32) (x1 : FVec Ideal S8 .f32) (x2 : FVec Ideal S4096x8 .f32)
    (b : Fin 8) (s : Fin 4096) (f : Fin 4096) :
    val_main_v7 (F := Ideal) x0 x1 x2 (ix3 b s f) = Cert.CosMlp.hidden x0 x1 x2 b s f := by
  rw [val_main_v7_apply, val_main_v6_apply, val_main_call0_v0_apply, val_main_call0_cst_apply]
  unfold Cert.CosMlp.hidden Cert.CosMlp.unit
  refine congrArg₂ max (Finset.sum_congr rfl fun n _ => ?_) rfl
  -- the feature's index and the unit's weight's, by coordinates
  have fl : lidx_main_v6 (ix3 b s f) n = ix3 b s n :=
    funext fun a => Fin.ext (by match a with | ⟨0, _⟩ => rfl | ⟨1, _⟩ => rfl | ⟨2, _⟩ => rfl)
  have fr : ridx_main_v6 (ix3 b s f) n = ix2 f n :=
    funext fun a => Fin.ext (by match a with | ⟨0, _⟩ => rfl | ⟨1, _⟩ => rfl)
  have fx : idx_main_v0 (ix3 b s n) = ix3 b s (Cert.CosMlp.chan n) :=
    funext fun a => Fin.ext (by match a with | ⟨0, _⟩ => rfl | ⟨1, _⟩ => rfl | ⟨2, _⟩ => rfl)
  have fθ : idx_main_v3 (idx_main_v4 (ix3 b s n)) = ix1 n :=
    funext fun a => Fin.ext (by match a with | ⟨0, _⟩ => rfl)
  rw [fl, fr, val_main_v5_apply, val_main_v1_apply, val_main_v0_apply, val_main_v4_apply, val_main_v3_apply,
    val_main_v2_apply, fx, fθ]
  rfl

/-- The reference's result stage, at the ideal values, is `out` of the four argument arrays. -/
theorem stage_eq_out (x0 : FVec Ideal S8x4096x1024 .f32) (x1 : FVec Ideal S8 .f32) (x2 : FVec Ideal S4096x8 .f32)
    (x3 : FVec Ideal S1024x4096 .f32) :
    val_main_v8 (F := Ideal) x0 x1 x2 x3 = Cert.CosMlp.out x0 x1 x2 x3 := by
  funext i
  obtain ⟨b, s, e, rfl⟩ : ∃ (b : Fin 8) (s : Fin 4096) (e : Fin 1024), i = ix3 b s e := ⟨i 0, i 1, i 2, eq_ix3 i⟩
  rw [val_main_v8_apply]
  show _ = ∑ f : Fin 4096, Cert.CosMlp.hidden x0 x1 x2 b s f * x3 (ix2 e f)
  refine Finset.sum_congr rfl fun f _ => ?_
  -- the hidden unit's index and the weight's, by coordinates
  have el : lidx_main_v8 (ix3 b s e) f = ix3 b s f :=
    funext fun a => Fin.ext (by match a with | ⟨0, _⟩ => rfl | ⟨1, _⟩ => rfl | ⟨2, _⟩ => rfl)
  have er : ridx_main_v8 (ix3 b s e) f = ix2 e f :=
    funext fun a => Fin.ext (by match a with | ⟨0, _⟩ => rfl | ⟨1, _⟩ => rfl)
  rw [el, er, hidden_stage]

end Cert.CosMlp.Reference

end
-- ==== Proof.BlockValue.lean ====
/-
  What one grid point computes, entry by entry.

  A point holds 512 token rows. From its block of 128 lanes per row it keeps the first eight, takes their cosines,
  multiplies the 512 × 8 features into the 4096 × 8 weights (contracting the eight channels), clips the 512 × 4096
  hidden layer below at zero, and multiplies it into the 1024 × 4096 output weights (contracting the 4096 hidden
  units). Both products start from an all-zero accumulator, so each is a plain sum; narrowing a value to a shorter
  float format changes nothing over the extended reals. Entry (r, e) of the point's result is therefore

      ∑ f, max (∑ n, cos x[r, n] · v[f, n]) 0 · w2[e, f].
-/
import proofs.«100312_j65481071395981_2_alg».proof.Proof.Gen.KernelIdeal.Skeleton
import proofs.«100312_j65481071395981_2_alg».proof.Proof.CosMlp
import Idealize.ShloMosaic.Lib.Pipeline.Value
import Idealize.ShloMosaic.Lib.ValueIdx
import Idealize.ShloMosaic.PureOps.Ideal.Laws

noncomputable section

namespace Cert.CosMlp.Block

open Cert.KernelIdeal Cert.KernelIdeal.Gen Idealize.ShloMosaic Idealize.ShloMosaic.ValueIdx

/-- Lane `n < 8` among the 128 lanes of a block's row. -/
def lane (n : Fin 8) : Fin 128 := ⟨n.val, by omega⟩

/-! ## The first product's operand indices: output (r, f), channel k ↦ (r, k) and (f, k) -/

theorem feat_row (j : S512x4096.Idx) (q : dot_S512x8_S4096x8_S512x4096_1_1_0_0_n_n.contr.Idx) : (dot_S512x8_S4096x8_S512x4096_1_1_0_0_n_n.lhsIdx j q 0).val = (j 0).val := by
  unfold DotDims.lhsIdx
  rw [dif_neg (show ¬(0 : Fin S512x8.rank) ∈ dot_S512x8_S4096x8_S512x4096_1_1_0_0_n_n.lhsBatch by decide),
    dif_pos (show (0 : Fin S512x8.rank) ∈ dot_S512x8_S4096x8_S512x4096_1_1_0_0_n_n.lhsNonContracting by decide)]
  rfl
theorem feat_chan (j : S512x4096.Idx) (q : dot_S512x8_S4096x8_S512x4096_1_1_0_0_n_n.contr.Idx) : (dot_S512x8_S4096x8_S512x4096_1_1_0_0_n_n.lhsIdx j q 1).val = (q ⟨0, by decide⟩).val :=
  dot_S512x8_S4096x8_S512x4096_1_1_0_0_n_n.lhsIdx_val_of_single rfl j q
theorem weight_unit (j : S512x4096.Idx) (q : dot_S512x8_S4096x8_S512x4096_1_1_0_0_n_n.contr.Idx) : (dot_S512x8_S4096x8_S512x4096_1_1_0_0_n_n.rhsIdx j q 0).val = (j 1).val := by
  unfold DotDims.rhsIdx
  rw [dif_neg (show ¬(0 : Fin S4096x8.rank) ∈ dot_S512x8_S4096x8_S512x4096_1_1_0_0_n_n.rhsBatch by decide),
    dif_pos (show (0 : Fin S4096x8.rank) ∈ dot_S512x8_S4096x8_S512x4096_1_1_0_0_n_n.rhsNonContracting by decide)]
  rfl
theorem weight_chan (j : S512x4096.Idx) (q : dot_S512x8_S4096x8_S512x4096_1_1_0_0_n_n.contr.Idx) : (dot_S512x8_S4096x8_S512x4096_1_1_0_0_n_n.rhsIdx j q 1).val = (q ⟨0, by decide⟩).val :=
  dot_S512x8_S4096x8_S512x4096_1_1_0_0_n_n.rhsIdx_val_of_single rfl j q

/-- Features times weights into a zero accumulator: row `r` of the features against row `f` of the weights. -/
theorem first_product (a : FVec Ideal S512x8 .bf16) (w : FVec Ideal S4096x8 .bf16) (r : Fin 512) (f : Fin 4096) :
    FloatOps.matmul dot_S512x8_S4096x8_S512x4096_1_1_0_0_n_n none a w (constant (F := Ideal) S512x4096 .f32 0x00000000#32) (ix2 r f)
      = ∑ n : Fin 8, a (ix2 r n) * w (ix2 f n) := by
  rw [Ideal.matmul_constant_zero_apply, ← Equiv.sum_comp (contrEquiv1 dot_S512x8_S4096x8_S512x4096_1_1_0_0_n_n 8 rfl rfl).symm]
  refine Finset.sum_congr rfl fun k _ => ?_
  have hk := contrEquiv1_symm_val dot_S512x8_S4096x8_S512x4096_1_1_0_0_n_n 8 rfl rfl k
  have el : dot_S512x8_S4096x8_S512x4096_1_1_0_0_n_n.lhsIdx (ix2 r f) ((contrEquiv1 dot_S512x8_S4096x8_S512x4096_1_1_0_0_n_n 8 rfl rfl).symm k) = ix2 r k := funext fun c => Fin.ext (by
    match c with
    | ⟨0, _⟩ => exact feat_row _ _
    | ⟨1, _⟩ => exact (feat_chan _ _).trans hk)
  have er : dot_S512x8_S4096x8_S512x4096_1_1_0_0_n_n.rhsIdx (ix2 r f) ((contrEquiv1 dot_S512x8_S4096x8_S512x4096_1_1_0_0_n_n 8 rfl rfl).symm k) = ix2 f k := funext fun c => Fin.ext (by
    match c with
    | ⟨0, _⟩ => exact weight_unit _ _
    | ⟨1, _⟩ => exact (weight_chan _ _).trans hk)
  rw [el, er]

/-! ## The second product's operand indices: output (r, e), hidden unit k ↦ (r, k) and (e, k) -/

theorem hid_row (j : S512x1024.Idx) (q : dot_S512x4096_S1024x4096_S512x1024_1_1_0_0_n_n.contr.Idx) : (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl
theorem hid_unit (j : S512x1024.Idx) (q : dot_S512x4096_S1024x4096_S512x1024_1_1_0_0_n_n.contr.Idx) : (dot_S512x4096_S1024x4096_S512x1024_1_1_0_0_n_n.lhsIdx j q 1).val = (q ⟨0, by decide⟩).val :=
  dot_S512x4096_S1024x4096_S512x1024_1_1_0_0_n_n.lhsIdx_val_of_single rfl j q
theorem outw_chan (j : S512x1024.Idx) (q : dot_S512x4096_S1024x4096_S512x1024_1_1_0_0_n_n.contr.Idx) : (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl
theorem outw_unit (j : S512x1024.Idx) (q : dot_S512x4096_S1024x4096_S512x1024_1_1_0_0_n_n.contr.Idx) : (dot_S512x4096_S1024x4096_S512x1024_1_1_0_0_n_n.rhsIdx j q 1).val = (q ⟨0, by decide⟩).val :=
  dot_S512x4096_S1024x4096_S512x1024_1_1_0_0_n_n.rhsIdx_val_of_single rfl j q

/-- Hidden layer times output weights into a zero accumulator: row `r` of the hidden layer against row `e` of the weights. -/
theorem second_product (h : FVec Ideal S512x4096 .bf16) (w : FVec Ideal S1024x4096 .bf16) (r : Fin 512) (e : Fin 1024) :
    FloatOps.matmul dot_S512x4096_S1024x4096_S512x1024_1_1_0_0_n_n none h w (constant (F := Ideal) S512x1024 .f32 0x00000000#32) (ix2 r e)
      = ∑ f : Fin 4096, h (ix2 r f) * w (ix2 e f) := by
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 r e) ((contrEquiv1 dot_S512x4096_S1024x4096_S512x1024_1_1_0_0_n_n 4096 rfl rfl).symm k) = ix2 r k := funext fun c => Fin.ext (by
    match c with
    | ⟨0, _⟩ => exact hid_row _ _
    | ⟨1, _⟩ => exact (hid_unit _ _).trans hk)
  have er : dot_S512x4096_S1024x4096_S512x1024_1_1_0_0_n_n.rhsIdx (ix2 r e) ((contrEquiv1 dot_S512x4096_S1024x4096_S512x1024_1_1_0_0_n_n 4096 rfl rfl).symm k) = ix2 e k := funext fun c => Fin.ext (by
    match c with
    | ⟨0, _⟩ => exact outw_chan _ _
    | ⟨1, _⟩ => exact (outw_unit _ _).trans hk)
  rw [el, er]

/-! ## The features and the point's result -/

/-- The first eight lanes of row `r`: the slice at (r, n) is the block at (r, lane n). -/
theorem first_lanes (x0 : FVec Ideal S512x128 .f32) (r : Fin 512) (n : Fin 8) :
    extractStridedSlice S512x8 ![0, 0] x0 slices_S512x128_o0_0_S512x8 (ix2 r n) = x0 (ix2 r (lane n)) :=
  extractStridedSlice_apply ![0, 0] x0 slices_S512x128_o0_0_S512x8 (ix2 r n) (ix2 r (lane n)) (fun c => match c with
    | ⟨0, _⟩ => by show r.val = 0 + r.val; omega
    | ⟨1, _⟩ => by show n.val = 0 + n.val; omega)

/-- Entry (r, e) of what a point stores, from its three input blocks: the block of token rows `x0`, the scaled
    weights `x1` and the output weights `x2`. -/
theorem entry (x0 : FVec Ideal S512x128 .f32) (x1 : FVec Ideal S4096x8 .bf16) (x2 : FVec Ideal S1024x4096 .bf16)
    (r : Fin 512) (e : Fin 1024) :
    k0_pay1 (F := Ideal) x0 x1 x2 (ix2 r e)
      = ∑ f : Fin 4096, Cert.CosMlp.unit (fun n => Ideal.cos (x0 (ix2 r (lane n)))) (fun n => x1 (ix2 f n)) * x2 (ix2 e f) := by
  unfold k0_pay1
  simp only [matmul]
  rw [shapeCast_self x0, shapeCast_self x1, shapeCast_self x2]
  refine (second_product _ _ r e).trans (Finset.sum_congr rfl fun f _ => congrArg (· * _) ?_)
  -- the hidden unit: narrowing is the identity, the clip is a maximum with the zero word's value
  show max (FloatOps.matmul dot_S512x8_S4096x8_S512x4096_1_1_0_0_n_n none _ _ (constant (F := Ideal) S512x4096 .f32 0x00000000#32) (ix2 r f))
      (Ideal.ofBits .f32 0x00000000#32) = _
  unfold Cert.CosMlp.unit
  refine congrArg (max · _) ((first_product _ _ r f).trans (Finset.sum_congr rfl fun n _ => congrArg (· * _) ?_))
  -- the feature: the cosine of the row's lane n
  show Ideal.cos (extractStridedSlice S512x8 ![0, 0] x0 slices_S512x128_o0_0_S512x8 (ix2 r n)) = _
  rw [first_lanes]

/-- A point's entry as an entry of the flat result. If the point's three blocks are the arrays `xr`, `v`, `w2` read
    where the point stands — its token rows are rows `p · 512 + r` of `xr`, its two weight blocks the whole of `v` and
    `w2` — then entry `j` of what it stores is `rows xr v w2` at the index `i` with the same channel and row
    `p · 512 + j 0`. -/
theorem point_entry (x0 : FVec Ideal S512x128 .f32) (x1 : FVec Ideal S4096x8 .bf16) (x2 : FVec Ideal S1024x4096 .bf16)
    (xr : S32768x1024.Idx → EReal) (v : S4096x8.Idx → EReal) (w2 : S1024x4096.Idx → EReal) (p : Nat)
    (h0 : ∀ (y : S512x128.Idx) (k : S32768x1024.Idx), (k 0).val = p * 512 + (y 0).val → (k 1).val = (y 1).val → x0 y = xr k)
    (h1 : ∀ y, x1 y = v y) (h2 : ∀ y, x2 y = w2 y)
    (j : S512x1024.Idx) (i : S32768x1024.Idx) (hi0 : (i 0).val = p * 512 + (j 0).val) (hi1 : (i 1).val = (j 1).val) :
    k0_pay1 (F := Ideal) x0 x1 x2 j = Cert.CosMlp.rows xr v w2 i := by
  obtain ⟨r, e, rfl⟩ : ∃ (r : Fin 512) (e : Fin 1024), j = ix2 r e := ⟨j 0, j 1, eq_ix2 j⟩
  obtain ⟨q, e', rfl⟩ : ∃ (q : Fin 32768) (e' : Fin 1024), i = ix2 q e' := ⟨i 0, i 1, eq_ix2 i⟩
  obtain rfl : e' = e := Fin.ext hi1
  rw [entry]
  show _ = ∑ f : Fin 4096, Cert.CosMlp.unit (fun n => Ideal.cos (xr (ix2 q (Cert.CosMlp.chan n)))) (fun n => v (ix2 f n)) * w2 (ix2 e' f)
  refine Finset.sum_congr rfl fun f _ => ?_
  rw [h2]
  refine congrArg (· * _) (congrArg₂ Cert.CosMlp.unit (funext fun n => ?_) (funext fun n => h1 _))
  exact congrArg Ideal.cos (h0 (ix2 r (lane n)) (ix2 q (Cert.CosMlp.chan n)) hi0 rfl)

end Cert.CosMlp.Block

end
-- ==== Proof.ArrayValue.lean ====
/-
  From the grid's points to the whole flat result.

  The grid has 64 points. Point t reads token rows t · 512 … t · 512 + 511 (the first 128 lanes of each) and both weight
  arrays whole, and writes back rows t · 512 … t · 512 + 511 of the flat result, all 1024 channels. What it writes is
  the matching block of the one function `rows` of the three arrays as the grid finds them; the 64 blocks tile the
  32768 rows (row q lies in the block of point q / 512), so after the last point the array is `rows`.
-/
import proofs.«100312_j65481071395981_2_alg».proof.Proof.Gen.KernelIdeal.Frame
import proofs.«100312_j65481071395981_2_alg».proof.Proof.BlockValue
import Idealize.ShloMosaic.Lib.Pipeline.Value
import Idealize.ShloMosaic.PureOps.Ideal

noncomputable section

namespace Cert.CosMlp.Grid

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem origin : (![0, 0] : Fin 2 → Nat) = fun _ => 0 := funext fun a => by fin_cases a <;> rfl

/-- Where each window's block stands at point `t`: the token rows and the result at block row `t`, first block column;
    both weight arrays at their only block. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of token rows: entry (r, l) is row t · 512 + r, lane l, of the flat tokens. -/
theorem tokens_block (c : Dev nD) (t : Fin cfg0.N) (y : S512x128.Idx) (k : S32768x1024.Idx)
    (hk0 : (k 0).val = t.val * 512 + (y 0).val) (hk1 : (k 1).val = (y 1).val) :
    (iblk m c 0 t : Vec Ideal S512x128 .f32) y = (V m c main_v0 : S32768x1024.Idx → Elt Ideal .f32) k := by
  obtain ⟨e0, e1, -⟩ := block_places t
  unfold iblk
  rw [View.read_apply]
  show V m c main_v0 _ = V m c main_v0 _
  congr 1
  funext a
  apply Fin.ext
  match a with
  | ⟨0, _⟩ => show win0_0.index t (0 : Fin 2) * 512 + 1 * (y 0).val = (k 0).val; rw [e0, hk0]; omega
  | ⟨1, _⟩ => show win0_0.index t (1 : Fin 2) * 128 + 1 * (y 1).val = (k 1).val; rw [e1, hk1]; omega

/-- Every point's block of the first weights is the whole array. -/
theorem weights_block (c : Dev nD) (t : Fin cfg0.N) (y : S4096x8.Idx) :
    (iblk m c 1 t : Vec Ideal S4096x8 .bf16) y = (V m c main_v5 : S4096x8.Idx → Elt Ideal .bf16) y := by
  obtain ⟨-, -, e0, e1, -⟩ := block_places t
  unfold iblk
  rw [View.read_apply]
  show V m c main_v5 _ = V m c main_v5 _
  congr 1
  funext a
  apply Fin.ext
  match a with
  | ⟨0, _⟩ => show win0_1.index t (0 : Fin 2) * 4096 + 1 * (y 0).val = (y 0).val; rw [e0]; omega
  | ⟨1, _⟩ => show win0_1.index t (1 : Fin 2) * 8 + 1 * (y 1).val = (y 1).val; rw [e1]; omega

/-- Every point's block of the second weights is the whole array. -/
theorem out_weights_block (c : Dev nD) (t : Fin cfg0.N) (y : S1024x4096.Idx) :
    (iblk m c 2 t : Vec Ideal S1024x4096 .bf16) y = (V m c main_v6 : S1024x4096.Idx → Elt Ideal .bf16) y := by
  obtain ⟨-, -, -, -, e0, e1, -⟩ := block_places t
  unfold iblk
  rw [View.read_apply]
  show V m c main_v6 _ = V m c main_v6 _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 4096 + 1 * (y 1).val = (y 1).val; rw [e1]; omega

/-- The flat result as a function of the three arrays the grid finds. -/
abbrev flat (c : Dev nD) : S32768x1024.Idx → EReal :=
  Cert.CosMlp.rows (V m c main_v0 : S32768x1024.Idx → Elt Ideal .f32) (V m c main_v5 : S4096x8.Idx → Elt Ideal .bf16)
    (V m c main_v6 : S1024x4096.Idx → Elt Ideal .bf16)

/-- What point `t` writes back is block `t` of the flat result. -/
theorem flushed_eq (c : Dev nD) (t : Fin cfg0.N) :
    (dats m 0 c).flushed 3 t = ((cfg0.win 3).blk t).view.read (Elt Ideal) (flat m c) := by
  show (cfg0.win 3).cut (grid0.coords t) ((dats m 0 c).after 3 t) = _
  rw [after0_3]
  unfold out0_3
  rw [View.canon_unit_zero origin]
  simp only [View.ld_unit_zero (S := S512x128) origin, View.ld_unit_zero (S := S4096x8) origin,
    View.ld_unit_zero (S := S1024x4096) origin]
  obtain ⟨-, -, -, -, -, -, e0, e1⟩ := block_places t
  funext j
  show k0_pay1 (F := Ideal) (iblk m c 0 t) (iblk m c 1 t) (iblk m c 2 t) j = flat m c (((cfg0.win 3).blk t).view.emb j)
  refine Cert.CosMlp.Block.point_entry (iblk m c 0 t) (iblk m c 1 t) (iblk m c 2 t)
    (V m c main_v0 : S32768x1024.Idx → Elt Ideal .f32) (V m c main_v5 : S4096x8.Idx → Elt Ideal .bf16)
    (V m c main_v6 : S1024x4096.Idx → Elt Ideal .bf16) t.val
    (fun y k hk0 hk1 => tokens_block m c t y k hk0 hk1) (fun y => weights_block m c t y)
    (fun y => out_weights_block m c t y) j (((cfg0.win 3).blk t).view.emb j) ?_ ?_
  · show win0_3.index t (0 : Fin 2) * 512 + 1 * (j 0).val = t.val * 512 + (j 0).val
    rw [e0]; omega
  · show win0_3.index t (1 : Fin 2) * 1024 + 1 * (j 1).val = (j 1).val
    rw [e1]; omega

/-- An index of the flat result is in point `t`'s block iff each coordinate is in the block's range on its axis. -/
theorem mem_block (t : Fin cfg0.N) (i : S32768x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v7).slice (win0_3.rect t)).set ↔ _
  rw [View.set_slice_whole, Rect.mem_set_unit]
  exact Iff.rfl

/-- Every index is in the block of the point its row divided by 512 names, which writes back. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, e0, e1⟩ := block_places t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e0, ht]; omega
  | ⟨1, _⟩ =>
    show win0_3.index t (1 : Fin 2) * 1024 ≤ (i 1).val ∧ (i 1).val < win0_3.index t (1 : Fin 2) * 1024 + 1024
    rw [e1]; omega

/-- After the last point the result's array is the flat result. -/
theorem final (c : Dev nD) : (dats m 0 c).arrAt 3 cfg0.N = flat m c :=
  (dats m 0 c).arrAt_eq_of_cover 3 (flat m c) (fun t _ => flushed_eq m c t) covered

end Cert.CosMlp.Grid

end
-- ==== Proof.HostArrays.lean ====
/-
  The three arrays the grid reads, as the host prepares them from the arguments.

  The tokens are the argument x laid out flat, row b · 4096 + s holding token (b, s). The first weights are
  W1[f, n] · cos θ[n]: the angles' cosines are spread along the 4096 units and multiplied in. The second weights are W2
  itself. Two of them are then narrowed to a shorter float format, which over the extended reals changes nothing.
-/
import proofs.«100312_j65481071395981_2_alg».proof.Proof.Gen.KernelIdeal.Frame
import proofs.«100312_j65481071395981_2_alg».proof.Proof.CosMlp
import Idealize.ShloMosaic.Lib.Pipeline.Value
import Idealize.ShloMosaic.Lib.StableHlo.Run
import Idealize.ShloMosaic.Lib.ValueIdx
import Idealize.ShloMosaic.PureOps.Ideal

noncomputable section

namespace Cert.CosMlp.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The four arguments on core `c`, as functions of an index into the extended reals. -/
abbrev argX (c : Dev nD) : S8x4096x1024.Idx → EReal := m ((c : Thread nD τ).loc main_arg0)
abbrev argθ (c : Dev nD) : S8.Idx → EReal := m ((c : Thread nD τ).loc main_arg1)
abbrev argW1 (c : Dev nD) : S4096x8.Idx → EReal := m ((c : Thread nD τ).loc main_arg2)
abbrev argW2 (c : Dev nD) : S1024x4096.Idx → EReal := m ((c : Thread nD τ).loc main_arg3)

/-- The three arrays the grid finds, likewise. -/
abbrev tokens (c : Dev nD) : S32768x1024.Idx → EReal := V m c main_v0
abbrev scaled (c : Dev nD) : S4096x8.Idx → EReal := V m c main_v5
abbrev outw (c : Dev nD) : S1024x4096.Idx → EReal := V m c main_v6

/-- The flat tokens: row b · 4096 + s, channel k, is x[b, s, k]. -/
theorem tokens_apply (c : Dev nD) (b : Fin 8) (s : Fin 4096) (k : Fin 1024) :
    tokens m c (ix2 (Cert.CosMlp.row b s) k) = argX m c (ix3 b s k) := by
  have e : tokens m c = shapeCast S32768x1024 (argX m c) shapeCasts_S8x4096x1024_S32768x1024 := by
    show StableHlo.after hostOps0 (fun b => m (c, b)) (Proc.devRef .tc main_v0) = _
    after_results <;> rfl
  rw [e]
  refine shapeCast_apply _ _ (ix2 (Cert.CosMlp.row b s) k) (ix3 b s k) ?_
  rw [Shape.rowMajor_val_three, Shape.rowMajor_val_two]
  rfl

/-- The scaled first weights: entry (f, n) is W1[f, n] · cos θ[n]. -/
theorem scaled_apply (c : Dev nD) (f : Fin 4096) (n : Fin 8) :
    scaled m c (ix2 f n) = argW1 m c (ix2 f n) * Ideal.cos (argθ m c (ix1 n)) := by
  have e : scaled m c = truncf (F := Ideal) .bf16 (mulf (argW1 m c)
        (broadcastInDim S4096x8 ![0, 1] bcast_S1x8_S4096x8_0_1
          (broadcastInDim S1x8 ![1] bcast_S8_S1x8_1 (Host.cos (F := Ideal) (argθ m c)))))
        bitsLt_bf16_f32 := by
    show StableHlo.after hostOps0 (fun b => m (c, b)) (Proc.devRef .tc main_v5) = _
    after_results <;> rfl
  rw [e]
  show argW1 m c (ix2 f n) * broadcastInDim S4096x8 ![0, 1] bcast_S1x8_S4096x8_0_1
      (broadcastInDim S1x8 ![1] bcast_S8_S1x8_1 (Host.cos (F := Ideal) (argθ m c))) (ix2 f n) = _
  refine congrArg (_ * ·) ?_
  -- spread along the units, then along a leading axis of one: both read the angle's own entry
  rw [broadcastInDim_apply _ bcast_S1x8_S4096x8_0_1 _ (ix2 f n) (ix2 (0 : Fin 1) n) (fun a => match a with
      | ⟨0, _⟩ => by show 0 = if (1 : Nat) = 1 then 0 else f.val; rw [if_pos rfl]
      | ⟨1, _⟩ => by show n.val = if (8 : Nat) = 1 then 0 else n.val; rw [if_neg (by decide)]),
    broadcastInDim_apply _ bcast_S8_S1x8_1 _ (ix2 (0 : Fin 1) n) (ix1 n) (fun a => match a with
      | ⟨0, _⟩ => by show n.val = if (8 : Nat) = 1 then 0 else n.val; rw [if_neg (by decide)])]
  rfl

/-- The second weights are W2. -/
theorem outw_apply (c : Dev nD) (y : S1024x4096.Idx) : outw m c y = argW2 m c y := by
  have e : outw m c = truncf (F := Ideal) .bf16 (argW2 m c) bitsLt_bf16_f32 := by
    show StableHlo.after hostOps0 (fun b => m (c, b)) (Proc.devRef .tc main_v6) = _
    after_results <;> rfl
  rw [e]
  rfl

end Cert.CosMlp.HostArrays

end
-- ==== Proof.KernelValue.lean ====
/-
  The kernel's result is `out`.

  After the grid the host lays the flat result back out by token: entry (b, s, e) of the result is the flat result at
  row b · 4096 + s, channel e. The flat result is `rows` of the flat tokens, the scaled first weights and the second
  weights; the flat tokens hold x[b, s, ·] at that same row, and the scaled weights are W1[f, n] · cos θ[n]. Moving that
  scale from the weight onto the feature (`out_rows`) gives `out` of the four arguments.
-/
import proofs.«100312_j65481071395981_2_alg».proof.Proof.Gen.KernelIdeal.Frame
import proofs.«100312_j65481071395981_2_alg».proof.Proof.ArrayValue
import proofs.«100312_j65481071395981_2_alg».proof.Proof.HostArrays
import Idealize.ShloMosaic.Lib.Pipeline.Value
import Idealize.ShloMosaic.Lib.StableHlo.Run
import Idealize.ShloMosaic.PureOps.Ideal

noncomputable section

namespace Cert.CosMlp.Kernel

open Cert.KernelIdeal Cert.KernelIdeal.Gen Idealize.ShloMosaic Idealize.ShloMosaic.TcCoe Idealize.SL.Sem
open Idealize.ShloMosaic.StableHlo Idealize.ShloMosaic.ValueIdx
open Cert.CosMlp.HostArrays

variable (m : (ℓ : Loc nD τ sig) → Buf (Elt Ideal) ℓ) (ρ : Dev nD → PrngReg)

/-- The result buffer after the lines that follow the grid, as a function of an index. -/
abbrev result (c : Dev nD) : S8x4096x1024.Idx → EReal :=
  Pipeline.afterTail₀ cfgs (dats m) 0 (V0 m) [hostOps1] c main_v8

/-- What the result buffer ends holding is `out` of the four arguments. -/
theorem result_eq_out (c : Dev nD) :
    result m c = Cert.CosMlp.out (argX m c) (argθ m c) (argW1 m c) (argW2 m c) := by
  -- the grid's array, as the lines after it find it, is the flat result
  have hw : (Pipeline.withArrays (cfgs 0).spec c (V0 m c) (fun w => (dats m 0 c).arrAt w (cfgs 0).N)
      (Proc.devRef .tc main_v7) : S32768x1024.Idx → EReal) = Cert.CosMlp.Grid.flat m c :=
    (Pipeline.withArrays_arr spec0 launch0.win.arr_inj c _ _ 3).trans (Cert.CosMlp.Grid.final m c)
  -- and the result is that array laid out by token
  have e : result m c = shapeCast S8x4096x1024 (Cert.CosMlp.Grid.flat m c) shapeCasts_S32768x1024_S8x4096x1024 := by
    unfold result Pipeline.afterTail₀
    show StableHlo.after hostOps1 _ (Proc.devRef .tc main_v8) = _
    after_results
    exact congrArg (fun a : S32768x1024.Idx → EReal => shapeCast S8x4096x1024 a shapeCasts_S32768x1024_S8x4096x1024) hw
  rw [e]
  funext i
  obtain ⟨b, s, k, rfl⟩ : ∃ (b : Fin 8) (s : Fin 4096) (k : Fin 1024), i = ix3 b s k := ⟨i 0, i 1, i 2, eq_ix3 i⟩
  rw [shapeCast_apply _ _ (ix3 b s k) (ix2 (Cert.CosMlp.row b s) k) (by
    rw [Shape.rowMajor_val_three, Shape.rowMajor_val_two]; rfl)]
  have h2 : outw m c = argW2 m c := funext (outw_apply m c)
  show Cert.CosMlp.rows (tokens m c) (scaled m c) (outw m c) (ix2 (Cert.CosMlp.row b s) k) = _
  rw [h2]
  exact Cert.CosMlp.out_rows (argX m c) (argθ m c) (argW1 m c) (argW2 m c) (tokens m c) (scaled m c)
    (tokens_apply m c) (scaled_apply m c) b s k

/-- The kernel's run, read: every weakly fair execution ends with the result at `out` of the arguments and the arguments
    as they were. -/
theorem run : θ_run defs (onTc (τ := τ) (main (F := Ideal))) ⟨m, fun _ => 0, ρ⟩ fun r => ∀ c : Dev nD,
      r.2.mem ((c.tc : Thread nD τ).loc main_v8) = Cert.CosMlp.out (argX m c) (argθ m c) (argW1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (result_eq_out m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.CosMlp.Kernel

end
-- ==== Proof.lean ====
/-
  The idealized kernel and the idealized reference compute one function of their four arguments.

  Both produce, for every token (b, s) and output channel e,

      out[b,s,e] = ∑ f, max (∑ n, (cos x[b,s,n] · cos θ[n]) · W1[f,n]) 0 · W2[e,f],

  the sums over the 4096 hidden units and the first eight channels (Proof/CosMlp.lean). The reference computes it in this
  form (Proof/ReferenceValue.lean). The kernel scales the weights W1[f,n] by cos θ[n] beforehand, lays the tokens out
  flat, lets each of 64 grid points compute 512 token rows (Proof/BlockValue.lean, Proof/ArrayValue.lean), and lays the
  result back out by token (Proof/HostArrays.lean, Proof/KernelValue.lean); the scale moves from the weight to the
  feature because multiplication of extended reals is commutative and associative. Nothing here needs the inputs to be
  finite: the precondition is never opened.

  The three frame claims are the generated frames (the reference's its generated run with the result dropped); the
  kernel's idealization rewrote no operation, so the claim that it is the kernel's sanctioned idealization is `True`.
-/
import proofs.«100312_j65481071395981_2_alg».proof.Defs
import proofs.«100312_j65481071395981_2_alg».proof.Proof.Gen.Kernel
import proofs.«100312_j65481071395981_2_alg».proof.Proof.Gen.Kernel.Skeleton
import proofs.«100312_j65481071395981_2_alg».proof.Proof.Gen.Kernel.Launch
import proofs.«100312_j65481071395981_2_alg».proof.Proof.Gen.Kernel.Points
import proofs.«100312_j65481071395981_2_alg».proof.Proof.Gen.Kernel.Frame
import proofs.«100312_j65481071395981_2_alg».proof.Proof.Gen.KernelIdeal
import proofs.«100312_j65481071395981_2_alg».proof.Proof.Gen.KernelIdeal.Skeleton
import proofs.«100312_j65481071395981_2_alg».proof.Proof.Gen.KernelIdeal.Launch
import proofs.«100312_j65481071395981_2_alg».proof.Proof.Gen.KernelIdeal.Points
import proofs.«100312_j65481071395981_2_alg».proof.Proof.Gen.KernelIdeal.Frame
import proofs.«100312_j65481071395981_2_alg».proof.Proof.Gen.ReferenceIdeal
import proofs.«100312_j65481071395981_2_alg».proof.Proof.Gen.ReferenceIdeal.Run
import proofs.«100312_j65481071395981_2_alg».proof.Proof.Gen.ReferenceIdeal.Read
import proofs.«100312_j65481071395981_2_alg».proof.Proof.Gen.Pre_finite_inputs
import proofs.«100312_j65481071395981_2_alg».proof.Proof.ReferenceValue
import proofs.«100312_j65481071395981_2_alg».proof.Proof.KernelValue
import Idealize.ShloMosaic.Adequacy
import Idealize.ShloMosaic.Init

noncomputable section

namespace Cert.Proof

open Idealize.ShloMosaic Idealize.ShloMosaic.TcCoe Idealize.SL.Sem

/-- The kernel runs, faults nowhere and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both idealized programs end with the result at `out` of those
    arguments: the kernel by its run read through the grid, the reference by its run read stage by stage. -/
theorem algebraic : Cert.algebraic_KernelIdeal_ReferenceIdeal := by
  intro m ρ m' ρ' _ hagree
  refine ⟨_, Cert.CosMlp.Kernel.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v8_eq _ _ _ _).trans (Cert.CosMlp.Reference.stage_eq_out _ _ _ _)).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
